-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S8192x1 : Shape := ⟨2, ![8192, 1]⟩
abbrev S1024x4096 : Shape := ⟨2, ![1024, 4096]⟩
abbrev S512x4096 : Shape := ⟨2, ![512, 4096]⟩
abbrev S1024x1 : Shape := ⟨2, ![1024, 1]⟩
abbrev S1024x512 : Shape := ⟨2, ![1024, 512]⟩
abbrev S1024 : Shape := ⟨1, ![1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .bf16⟩
  | .hbm, ⟨3, _⟩ => ⟨S4096x4096, .bf16⟩
  | .hbm, ⟨4, _⟩ => ⟨S8192x1, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  reduces_S1024x512_S1024 : S1024x512.Reduces [1] S1024
  shapeCasts_S1024_S1024x1 : S1024.ShapeCasts S1024x1
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_v0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩
abbrev S8192 : Shape := ⟨1, ![8192]⟩
abbrev S8192x1 : Shape := ⟨2, ![8192, 1]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S8192x4096_S8192_d1 : S8192x4096.ReducesTo [1] S8192
  h_S_ : 0 < S_.numel
  bcast_S8192_S8192x1_0 : S8192.BroadcastsInDim S8192x1 (![0] : Fin 1 → Fin S8192x1.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Spec.lean ====
/-
  The quantity both programs compute, as one function of the two argument arrays.

  For a matrix X with 8192 rows and a matrix A with 4096 rows, both of 4096 columns, the result has one entry per
  row n of X: the sum over the rows q of A of the SQUARED inner product of row n of X with row q of A, i.e. the
  squared length of the row X(n, ·)·Aᵀ.  Everything is read in the extended reals, where addition is commutative
  and associative (no finiteness is needed to regroup a sum).

  Also here, over any commutative monoid: a sum over J consecutive runs of w positions is the sum over the w·J
  positions — the law that joins a row's sum taken 512 columns at a time with the sum over all 4096 columns.
-/
import Idealize.ShloMosaic.Lib.ValueIdx
import Idealize.ShloMosaic.PureOps.Ideal.Laws

noncomputable section

open scoped BigOperators

namespace Cert.RowNorms

open Idealize.ShloMosaic Idealize.ShloMosaic.ValueIdx

/-- The inner product of row `n` of `X` with row `q` of `A`. -/
def inner (X : FVec Ideal ⟨2, ![8192, 4096]⟩ .f32) (A : FVec Ideal ⟨2, ![4096, 4096]⟩ .f32) (n : Fin 8192) (q : Fin 4096) : EReal :=
  ∑ d : Fin 4096, X (ix2 n d) * A (ix2 q d)

/-- The square of that inner product. -/
def sq (X : FVec Ideal ⟨2, ![8192, 4096]⟩ .f32) (A : FVec Ideal ⟨2, ![4096, 4096]⟩ .f32) (n : Fin 8192) (q : Fin 4096) : EReal :=
  inner X A n q * inner X A n q

/-- THE SPECIFICATION: entry (n, 0) of the result is the sum over the rows `q` of `A` of the squared inner product
    of row `n` of `X` with row `q` of `A`. -/
def rowNorms (X : FVec Ideal ⟨2, ![8192, 4096]⟩ .f32) (A : FVec Ideal ⟨2, ![4096, 4096]⟩ .f32) : FVec Ideal ⟨2, ![8192, 1]⟩ .f32 :=
  fun i => ∑ q : Fin 4096, sq X A (i 0) q

/-- A sum taken run by run: `J` consecutive runs of `w` positions each make up the first `w·J` positions. -/
theorem sum_runs {M : Type*} [AddCommMonoid M] (f : ℕ → M) (w : ℕ) :
    ∀ J : ℕ, (∑ s ∈ Finset.range J, ∑ q : Fin w, f (w * s + q.val)) = ∑ p : Fin (w * J), f p.val
  | 0 => by simp
  | J + 1 => by
    rw [Finset.sum_range_succ, sum_runs f w J, Fin.sum_univ_eq_sum_range (fun p => f p) (w * J),
      Fin.sum_univ_eq_sum_range (fun q => f (w * J + q)) w, Fin.sum_univ_eq_sum_range (fun p => f p) (w * (J + 1)),
      Nat.mul_succ, Finset.sum_range_add]

end Cert.RowNorms

end
-- ==== Proof.LibTransposedDot.lean ====
/-
  The product of a matrix with the TRANSPOSE of another, read at one entry, at the ideal values.

  Take dimension numbers that contract the left operand's column axis against the right operand's COLUMN axis
  and have no batch axis: an m×k matrix A against an n×k matrix B, rows against rows.  Then a kernel's
  `tpu.matmul` into the zero accumulator and the host's `dot_general` both hold, at entry (a, b), the sum over
  the contracted coordinate c of A(a, c) · B(b, c) — in the extended reals, with no finiteness asked, since both
  are that sum by definition once the contraction index is renamed by its one coordinate.

  The dimension record may be any record equal to the library's `DotDims.transposedRhs m k n`; for a record
  written out with those lists the equality is `rfl`.
-/
import Idealize.ShloMosaic.PureOps.Ideal.Laws
import Idealize.ShloMosaic.Lib.ValueIdx

noncomputable section

open scoped BigOperators

namespace Cert.TransposedDot

open Idealize.ShloMosaic Idealize.ShloMosaic.ValueIdx

variable {m k n : Nat} {φ₁ φ₂ : FTy}

/-- The left operand's row coordinate is the output's row. -/
theorem lhsIdx_0 (j : (⟨2, ![m, n]⟩ : Shape).Idx) (q : (DotDims.transposedRhs m k n).contr.Idx) :
    ((DotDims.transposedRhs m k n).lhsIdx j q 0).val = (j 0).val := by
  unfold DotDims.lhsIdx
  rw [dif_neg (show ¬(0 : Fin 2) ∈ (DotDims.transposedRhs m k n).lhsBatch from List.not_mem_nil),
    dif_pos (show (0 : Fin 2) ∈ (DotDims.transposedRhs m k n).lhsNonContracting from List.mem_singleton.mpr rfl)]
  rfl

/-- The left operand's column coordinate is the contraction coordinate. -/
theorem lhsIdx_1 (j : (⟨2, ![m, n]⟩ : Shape).Idx) (q : (DotDims.transposedRhs m k n).contr.Idx) :
    ((DotDims.transposedRhs m k n).lhsIdx j q 1).val = (q ⟨0, Nat.one_pos⟩).val :=
  (DotDims.transposedRhs m k n).lhsIdx_val_of_single rfl j q

/-- The right operand's row coordinate is the output's column. -/
theorem rhsIdx_0 (j : (⟨2, ![m, n]⟩ : Shape).Idx) (q : (DotDims.transposedRhs m k n).contr.Idx) :
    ((DotDims.transposedRhs m k n).rhsIdx j q 0).val = (j 1).val := by
  unfold DotDims.rhsIdx
  rw [dif_neg (show ¬(0 : Fin 2) ∈ (DotDims.transposedRhs m k n).rhsBatch from List.not_mem_nil),
    dif_pos (show (0 : Fin 2) ∈ (DotDims.transposedRhs m k n).rhsNonContracting from List.mem_singleton.mpr rfl)]
  rfl

/-- The right operand's column coordinate is the contraction coordinate. -/
theorem rhsIdx_1 (j : (⟨2, ![m, n]⟩ : Shape).Idx) (q : (DotDims.transposedRhs m k n).contr.Idx) :
    ((DotDims.transposedRhs m k n).rhsIdx j q 1).val = (q ⟨0, Nat.one_pos⟩).val :=
  (DotDims.transposedRhs m k n).rhsIdx_val_of_single rfl j q

/-- At output entry (a, b) and contraction coordinate c the left operand is read at (a, c). -/
theorem lhsIdx_eq (a : Fin m) (b : Fin n) (c : Fin k) :
    (DotDims.transposedRhs m k n).lhsIdx (ix2 a b) ((contrEquiv1 (DotDims.transposedRhs m k n) k rfl rfl).symm c) = ix2 a c := by
  have hc := contrEquiv1_symm_val (DotDims.transposedRhs m k n) k rfl rfl c
  funext ax
  apply Fin.ext
  match ax with
  | ⟨0, _⟩ => exact lhsIdx_0 _ _
  | ⟨1, _⟩ => exact (lhsIdx_1 _ _).trans hc

/-- At output entry (a, b) and contraction coordinate c the right operand is read at (b, c). -/
theorem rhsIdx_eq (a : Fin m) (b : Fin n) (c : Fin k) :
    (DotDims.transposedRhs m k n).rhsIdx (ix2 a b) ((contrEquiv1 (DotDims.transposedRhs m k n) k rfl rfl).symm c) = ix2 b c := by
  have hc := contrEquiv1_symm_val (DotDims.transposedRhs m k n) k rfl rfl c
  funext ax
  apply Fin.ext
  match ax with
  | ⟨0, _⟩ => exact rhsIdx_0 _ _
  | ⟨1, _⟩ => exact (rhsIdx_1 _ _).trans hc

/-- The sum over the contraction index of a rows-against-rows product is the sum over its one coordinate. -/
theorem sum_contr (A : (⟨2, ![m, k]⟩ : Shape).Idx → EReal) (B : (⟨2, ![n, k]⟩ : Shape).Idx → EReal)
    (a : Fin m) (b : Fin n) :
    (∑ q : (DotDims.transposedRhs m k n).contr.Idx,
        A ((DotDims.transposedRhs m k n).lhsIdx (ix2 a b) q) * B ((DotDims.transposedRhs m k n).rhsIdx (ix2 a b) q))
      = ∑ c : Fin k, A (ix2 a c) * B (ix2 b c) := by
  rw [← Equiv.sum_comp (contrEquiv1 (DotDims.transposedRhs m k n) k rfl rfl).symm]
  refine Finset.sum_congr rfl fun c _ => ?_
  rw [lhsIdx_eq, rhsIdx_eq]

/-- A `tpu.matmul` into the zero accumulator, rows against rows, at entry (a, b):
    the sum over c of A(a, c) · B(b, c). -/
theorem matmul_zero_apply (D : DotDims ⟨2, ![m, k]⟩ ⟨2, ![n, k]⟩ ⟨2, ![m, n]⟩) (hD : D = DotDims.transposedRhs m k n)
    (prec : Option ContractPrecision) (A : FVec Ideal ⟨2, ![m, k]⟩ φ₁) (B : FVec Ideal ⟨2, ![n, k]⟩ φ₂)
    (a : Fin m) (b : Fin n) :
    FloatOps.matmul D prec A B (constant (F := Ideal) ⟨2, ![m, n]⟩ .f32 0x00000000#32) (ix2 a b)
      = ∑ c : Fin k, A (ix2 a c) * B (ix2 b c) := by
  subst hD
  rw [Ideal.matmul_constant_zero_apply]
  exact sum_contr A B a b

/-- The host's `dot_general`, rows against rows, at entry (a, b): the same sum. -/
theorem dotGeneral_apply (D : DotDims ⟨2, ![m, k]⟩ ⟨2, ![n, k]⟩ ⟨2, ![m, n]⟩) (hD : D = DotDims.transposedRhs m k n)
    (prec : Option ContractPrecision) (sched : HostSchedule) (A : FVec Ideal ⟨2, ![m, k]⟩ φ₁)
    (B : FVec Ideal ⟨2, ![n, k]⟩ φ₂) (a : Fin m) (b : Fin n) :
    FloatOps.dotGeneral D prec sched A B (ix2 a b) = ∑ c : Fin k, A (ix2 a c) * B (ix2 b c) := by
  subst hD
  rw [Ideal.dotGeneral_apply]
  exact sum_contr A B a b

end Cert.TransposedDot

end
-- ==== Proof.LibRowOps.lean ====
/-
  Row-wise reductions with `keepdims`, read at an index: a length-`a` vector viewed as an `[a, 1]` column, a column
  broadcast along its rows to `[a, b]`, and a reduction over the second axis of an `[a, b]` array read at row `r` — the
  index the reduction inserts the dropped coordinate into is (r, k), so a row maximum is the fold of `max` over the row's
  entries and a row sum is the sum over them.
-/
import Idealize.ShloMosaic.Lib.Pipeline.Value
import Idealize.ShloMosaic.Lib.ValueIdx
import Idealize.ShloMosaic.PureOps.Ideal.Laws

noncomputable section

namespace RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `r` with the second-axis coordinate `k` put back is (r, k). -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A maximum over the second axis, at row `r`: the fold of `max`, from the accumulator's value, over the row. -/
theorem rowMax_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) := by
  refine (Ideal.multiReduction_maximumf_single src acc h hφ hacc (ix1 r)).trans ?_
  have hf : (src ∘ h.lift (ix1 r)) = fun k : Fin b => src (ix2 r k) := funext fun k => congrArg src (lift_row h r k)
  exact congrArg (fun f => Finset.fold max (Ideal.ofBits .f32 acc) f (Finset.univ : Finset (Fin b))) hf

/-- A sum over the second axis, at row `r`: the sum over the row. -/
theorem rowSum_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end RowOps

end
-- ==== Proof.Payload.lean ====
/-
  What one grid point adds to the running row sums, read at an entry, at the ideal values.

  The body's stored value is the scratch column it loaded plus a column of row sums: for row r of the point's
  1024×4096 block of X and the point's 512×4096 block of A, the sum over the block's 512 rows q of the squared
  inner product of X's row r with A's row q.  The product of the X block with the transpose of the A block goes
  into a zero accumulator, so entry (r, q) of it is just that inner product; squaring is entrywise; the reduction
  over the second axis is the sum over q; and the two reshapes in between only rename indices.
  The value the reset stores is the zero column.
-/
import proofs.«117225_j55301998903476_2_alg».proof.Proof.Gen.KernelIdeal.Skeleton
import proofs.«117225_j55301998903476_2_alg».proof.Proof.LibTransposedDot
import proofs.«117225_j55301998903476_2_alg».proof.Proof.LibRowOps
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- One point's addend at row `r`: the sum over the 512 rows `q` of the A block of the squared inner product of
    row `r` of the X block with row `q` of the A block. -/
def addend (x0 : Vec Ideal S1024x4096 .bf16) (x1 : Vec Ideal S512x4096 .bf16) (r : Fin 1024) : EReal :=
  ∑ q : Fin 512, (∑ d : Fin 4096, x0 (ix2 r d) * x1 (ix2 q d)) * (∑ d : Fin 4096, x0 (ix2 r d) * x1 (ix2 q d))

/-- The accumulating store's value at entry (r, 0): what the scratch held there plus the point's addend at row `r`. -/
theorem pay2_apply (x0 : Vec Ideal S1024x4096 .bf16) (x1 : Vec Ideal S512x4096 .bf16) (acc : Vec Ideal S1024x1 .f32)
    (r : Fin 1024) (u : Fin 1) :
    k0_pay2 (F := Ideal) x0 x1 acc (ix2 r u) = acc (ix2 r u) + addend x0 x1 r := by
  unfold k0_pay2
  simp only [shapeCast_self]
  rw [addf_apply, RowOps.shapeCast_a_a1_apply]
  refine congrArg (acc (ix2 r u) + ·) ?_
  refine (RowOps.rowSum_apply _ _ _ _ _ r).trans ?_
  unfold addend
  refine Finset.sum_congr rfl fun q _ => ?_
  have e := Cert.TransposedDot.matmul_zero_apply (φ₁ := .bf16) (φ₂ := .bf16) dot_S1024x4096_S512x4096_S1024x512_1_1_0_0_n_n rfl none x0 x1 r q
  exact congrArg₂ (· * ·) e e

/-- The reset's value at any entry: zero. -/
theorem pay1_apply (y : S1024x1.Idx) : k0_pay1 (F := Ideal) y = 0 := by
  unfold k0_pay1
  simp only [shapeCast_self]
  show Ideal.ofBits .f32 0x00000000#32 = 0
  exact Ideal.ofBits_zero_f32

end Cert.KernelIdeal.Payload

end
-- ==== Proof.Pieces.lean ====
/-
  What the body leaves behind at a grid point, as values.

  The body keeps a scratch column of 1024 running sums.  At the first point of a row tile it stores the zero column
  into the scratch, reads it back and stores "scratch + this point's row sums"; at every later point it stores
  "scratch + this point's row sums" over what the point before left; at the last point of the row tile it also copies
  the scratch, after that store, into the output block.  Each store covers the whole buffer, so what a buffer holds
  afterwards is the stored value itself: the accumulating store's value over the zero column, or over the previous
  contents, and the output block is the same value as the scratch.
-/
import proofs.«117225_j55301998903476_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

theorem hz : (![0, 0] : Fin 2 → Nat) = fun _ => 0 := funext fun a => by fin_cases a <;> rfl

/-- FIRST POINT OF A ROW TILE: the scratch ends at the accumulating store's value over the zero column the reset
    stored (the read-back of the reset is the reset's own value). -/
theorem sout_A (c : Dev nD) (i : grid0.Coords) (arg2 : Memref sig .tc .vmem S1024x4096 .bf16) (harg2 : arg2.IsWhole) (arg3 : Memref sig .tc .vmem S512x4096 .bf16) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x4096 .bf16) (x1 : Vec F S512x4096 .bf16) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1024x1) hz, View.readCov_unit_zero (S := S1024x1) _ hz]
  simp only [View.readAt_eq_ld, harg2.read_unread, harg3.read_unread, View.ld_unit_zero (S := S1024x4096) hz, View.ld_unit_zero (S := S512x4096) hz]

/-- A MIDDLE POINT: the scratch ends at the accumulating store's value over what it held. -/
theorem sout_B (c : Dev nD) (i : grid0.Coords) (arg2 : Memref sig .tc .vmem S1024x4096 .bf16) (harg2 : arg2.IsWhole) (arg3 : Memref sig .tc .vmem S512x4096 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x4096 .bf16) (x1 : Vec F S512x4096 .bf16) (xs0 : Vec F S1024x1 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero hz]
  simp only [View.readAt_eq_ld, harg2.read_unread, harg3.read_unread, harg5.read_unread, View.ld_unit_zero (S := S1024x4096) hz, View.ld_unit_zero (S := S512x4096) hz, View.ld_unit_zero (S := S1024x1) hz]

/-- THE LAST POINT OF A ROW TILE: the scratch ends at the accumulating store's value over what it held, -/
theorem sout_C (c : Dev nD) (i : grid0.Coords) (arg2 : Memref sig .tc .vmem S1024x4096 .bf16) (harg2 : arg2.IsWhole) (arg3 : Memref sig .tc .vmem S512x4096 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x4096 .bf16) (x1 : Vec F S512x4096 .bf16) (xs0 : Vec F S1024x1 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread, View.ld_unit_zero (S := S1024x4096) hz, View.ld_unit_zero (S := S512x4096) hz, View.ld_unit_zero (S := S1024x1) hz]

/-- and the output block is the scratch read back after that store: the same value. -/
theorem out_C (c : Dev nD) (i : grid0.Coords) (arg2 : Memref sig .tc .vmem S1024x4096 .bf16) (harg2 : arg2.IsWhole) (arg3 : Memref sig .tc .vmem S512x4096 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x4096 .bf16) (x1 : Vec F S512x4096 .bf16) (xs0 : Vec F S1024x1 .f32) :
    out0_C_2 c i arg2 harg2 arg3 harg3 arg4 harg4 arg5 harg5 hc0 hc1 x0 x1 xs0 = k0_pay2 x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz, View.readCov_unit_zero (S := S1024x1) _ hz]
  simp only [View.readAt_eq_ld, harg2.read_unread, harg3.read_unread, harg5.read_unread, View.ld_unit_zero (S := S1024x4096) hz, View.ld_unit_zero (S := S512x4096) hz, View.ld_unit_zero (S := S1024x1) hz]

end Cert.KernelIdeal.Pieces

end
-- ==== Proof.Blocks.lean ====
/-
  The two input blocks of a grid point, read at an entry, at the ideal values.

  The grid has 8×8 points; point t has row-tile number t / 8 and column-run number t % 8.  The first input window
  shows rows 1024·(t / 8) … 1024·(t / 8) + 1023 of the first argument, all 4096 columns; the second shows rows
  512·(t % 8) … 512·(t % 8) + 511 of the second argument, all columns.  The arrays the windows are cut from are the
  arguments after a change of float format, which at the ideal values changes nothing.
-/
import proofs.«117225_j55301998903476_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The block numbers of the three windows at point `t`, decided once over the 64 points: the first input and the
    output sit at row tile `t / 8`, the second input at row run `t % 8`, all at column block 0. -/
theorem idx_facts : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-- The array the first window is cut from is the first argument (the format change is the identity). -/
theorem V_v0 (c : Dev nD) : (V m c main_v0 : S8192x4096.Idx → EReal) = m ((c : Thread nD τ).loc main_arg0) := by
  dsimp only [Gen.V, Gen.hostOps0]; after_results; rfl

/-- The array the second window is cut from is the second argument. -/
theorem V_v1 (c : Dev nD) : (V m c main_v1 : S4096x4096.Idx → EReal) = m ((c : Thread nD τ).loc main_arg1) := by
  dsimp only [Gen.V, Gen.hostOps0]; after_results; rfl

/-- Entry (r, d) of the first input block at point `t` is the first argument at row `1024·(t / 8) + r`, column `d`. -/
theorem iblk0_apply (c : Dev nD) (t : Fin cfg0.N) (r : Fin 1024) (d : Fin 4096) (n : Fin 8192)
    (hn : n.val = 1024 * (t.val / 8) + r.val) :
    (iblk m c 0 t : Vec Ideal S1024x4096 .bf16) (ix2 r d) = m ((c : Thread nD τ).loc main_arg0) (ix2 n d) := by
  unfold iblk
  rw [View.read_apply]
  show V m c main_v0 _ = _
  rw [V_v0]
  refine congrArg _ (funext fun a => Fin.ext ?_)
  obtain ⟨e0, e1, -, -, -, -⟩ := idx_facts t
  match a with
  | ⟨0, _⟩ => show win0_0.index t (0 : Fin 2) * 1024 + 1 * r.val = n.val; rw [e0]; omega
  | ⟨1, _⟩ => show win0_0.index t (1 : Fin 2) * 4096 + 1 * d.val = d.val; rw [e1]; omega

/-- Entry (q, d) of the second input block at point `t` is the second argument at row `512·(t % 8) + q`, column `d`. -/
theorem iblk1_apply (c : Dev nD) (t : Fin cfg0.N) (q : Fin 512) (d : Fin 4096) (p : Fin 4096)
    (hp : p.val = 512 * (t.val % 8) + q.val) :
    (iblk m c 1 t : Vec Ideal S512x4096 .bf16) (ix2 q d) = m ((c : Thread nD τ).loc main_arg1) (ix2 p d) := by
  unfold iblk
  rw [View.read_apply]
  show V m c main_v1 _ = _
  rw [V_v1]
  refine congrArg _ (funext fun a => Fin.ext ?_)
  obtain ⟨-, -, e0, e1, -, -⟩ := idx_facts t
  match a with
  | ⟨0, _⟩ => show win0_1.index t (0 : Fin 2) * 512 + 1 * q.val = p.val; rw [e0]; omega
  | ⟨1, _⟩ => show win0_1.index t (1 : Fin 2) * 4096 + 1 * d.val = d.val; rw [e1]; omega

end Cert.KernelIdeal.Blocks

end
-- ==== Proof.Fold.lean ====
/-
  The kernel's result array, as one function of the two arguments, at the ideal values.

  Fix a row tile I (of 8) and follow its 8 grid points 8·I, …, 8·I + 7.  The scratch column after point 8·I + j is
  0 plus the sum over the points 8·I, …, 8·I + j of each point's addend, and point 8·I + s's addend at row r is the
  sum, over the 512 rows q of its block of the second argument, of the squared inner product of row 1024·I + r of the
  first argument with row 512·s + q of the second.  After the last point, j = 7, the eight runs of 512 rows make up
  all 4096 rows, so the scratch — and the output block copied from it, the only block written back for this row
  tile — holds at row r the sum over ALL rows q of the second argument of the squared inner product: the
  specification at row 1024·I + r.  The 8 row tiles' output blocks tile the 8192 rows of the result.

  Only commutativity and associativity of addition and 0 + x = x on the extended reals are used; no finiteness.
-/
import proofs.«117225_j55301998903476_2_alg».proof.Proof.Gen.KernelIdeal.Value
import proofs.«117225_j55301998903476_2_alg».proof.Proof.Spec
import proofs.«117225_j55301998903476_2_alg».proof.Proof.Payload
import proofs.«117225_j55301998903476_2_alg».proof.Proof.Pieces
import proofs.«117225_j55301998903476_2_alg».proof.Proof.Blocks
import Idealize.ShloMosaic.Lib.Pipeline.Value
import Idealize.ShloMosaic.Lib.ValueIdx

noncomputable section

open scoped BigOperators

namespace Cert.KernelIdeal.Fold

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The first argument's launch contents on device `c`. -/
abbrev argX (c : Dev nD) : FVec Ideal S8192x4096 .f32 := m ((c : Thread nD τ).loc main_arg0)
/-- The second argument's launch contents on device `c`. -/
abbrev argA (c : Dev nD) : FVec Ideal S4096x4096 .f32 := m ((c : Thread nD τ).loc main_arg1)

theorem hN : cfg0.N = 64 := N_0

/-- Point `n`'s addend to the scratch column at entry `y` (zero past the grid, where it is never used). -/
def addendAt (c : Dev nD) (n : ℕ) (y : S1024x1.Idx) : EReal :=
  if h : n < cfg0.N then
    Payload.addend (iblk m c 0 (⟨n, h⟩ : Fin cfg0.N) : Vec Ideal S1024x4096 .bf16) (iblk m c 1 (⟨n, h⟩ : Fin cfg0.N) : Vec Ideal S512x4096 .bf16) (y 0)
  else 0

/-- At the first point of a row tile the scratch is left at 0 plus the point's addend, whatever it held. -/
theorem scAt_reset (c : Dev nD) (n : ℕ) (hb : n < cfg0.N) (h0 : n % 8 = 0) (acc : Vec Ideal S1024x1 .f32) (y : S1024x1.Idx) :
    Value.scAt0_0 m c n hb acc y = (fun _ => (0 : EReal)) y + addendAt m c n y := by
  have h1 : ¬n % 8 = 7 := by omega
  unfold Value.scAt0_0
  rw [dif_pos h0, dif_neg h1]
  obtain ⟨r, u, rfl⟩ : ∃ (r : Fin 1024) (u : Fin 1), y = ix2 r u := ⟨y 0, y 1, eq_ix2 y⟩
  refine (congrFun (Pieces.sout_A (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N))) (ix2 r u)).trans ?_
  refine (Payload.pay2_apply _ _ _ r u).trans ?_
  rw [Payload.pay1_apply]
  unfold addendAt
  rw [dif_pos hb]

/-- At every other point of the row tile the scratch is left at what it held plus the point's addend. -/
theorem scAt_step (c : Dev nD) (n : ℕ) (hb : n < cfg0.N) (h0 : ¬n % 8 = 0) (acc : Vec Ideal S1024x1 .f32) (y : S1024x1.Idx) :
    Value.scAt0_0 m c n hb acc y = acc y + addendAt m c n y := by
  unfold Value.scAt0_0
  rw [dif_neg h0]
  obtain ⟨r, u, rfl⟩ : ∃ (r : Fin 1024) (u : Fin 1), y = ix2 r u := ⟨y 0, y 1, eq_ix2 y⟩
  by_cases h1 : n % 8 = 7
  · rw [dif_pos h1]
    refine (congrFun (Pieces.sout_C (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) acc) (ix2 r u)).trans ?_
    refine (Payload.pay2_apply _ _ _ r u).trans ?_
    unfold addendAt
    rw [dif_pos hb]
  · rw [dif_neg h1]
    refine (congrFun (Pieces.sout_B (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) acc) (ix2 r u)).trans ?_
    refine (Payload.pay2_apply _ _ _ r u).trans ?_
    unfold addendAt
    rw [dif_pos hb]

/-- THE SCRATCH AFTER POINT `t`: 0 plus the addends of the points of `t`'s row tile up to `t`. -/
theorem scratch_after (c : Dev nD) (t : Fin cfg0.N) (y : S1024x1.Idx) :
    (outsAt0 m c t.val t.isLt).2 y = 0 + ∑ s ∈ Finset.range (t.val % 8 + 1), addendAt m c (8 * (t.val / 8) + s) y := by
  rw [Value.soutsAt0_0_eq]
  have hlt : t.val % 8 < 8 := Nat.mod_lt _ (by decide)
  exact Pipeline.accAt_add_apply _ (Value.scAt0_0 m c) (fun _ => (0 : EReal)) (addendAt m c) (8 * (t.val / 8)) 7
    (fun h i => scAt_reset m c _ h (Nat.mul_mod_right 8 _) _ i)
    (fun n h acc i h1 h2 => scAt_step m c n h (by omega) acc i)
    (t.val % 8) (by omega) _ y

/-- The squared inner product of row `n` of the first argument with row `p` of the second, for any natural `p`
    (zero past the last row): a summand indexed by a natural number, for the sum taken run by run. -/
def term (c : Dev nD) (n : Fin 8192) (p : ℕ) : EReal :=
  if h : p < 4096 then RowNorms.sq (argX m c) (argA m c) n ⟨p, h⟩ else 0

/-- Point `8·I + s`'s addend at row `r`: the squared inner products of row `1024·I + r` with the rows
    `512·s … 512·s + 511` of the second argument, summed. -/
theorem addendAt_eq (c : Dev nD) (I s : ℕ) (hI : I < 8) (hs : s < 8) (y : S1024x1.Idx) (n : Fin 8192)
    (hn : n.val = 1024 * I + (y 0).val) :
    addendAt m c (8 * I + s) y = ∑ q : Fin 512, term m c n (512 * s + q.val) := by
  have hb : 8 * I + s < cfg0.N := by rw [hN]; omega
  unfold addendAt
  rw [dif_pos hb]
  unfold Payload.addend
  refine Finset.sum_congr rfl fun q _ => ?_
  have hq : 512 * s + q.val < 4096 := by have := q.isLt; omega
  unfold term
  rw [dif_pos hq]
  have key : ∀ (x0 : Vec Ideal S1024x4096 .bf16) (x1 : Vec Ideal S512x4096 .bf16),
      (∀ d : Fin 4096, x0 (ix2 (y 0) d) = argX m c (ix2 n d)) →
      (∀ d : Fin 4096, x1 (ix2 q d) = argA m c (ix2 (⟨512 * s + q.val, hq⟩ : Fin 4096) d)) →
      (∑ d : Fin 4096, x0 (ix2 (y 0) d) * x1 (ix2 q d)) * (∑ d : Fin 4096, x0 (ix2 (y 0) d) * x1 (ix2 q d))
        = RowNorms.sq (argX m c) (argA m c) n ⟨512 * s + q.val, hq⟩ := by
    intro x0 x1 e0 e1
    unfold RowNorms.sq RowNorms.inner
    simp only [e0, e1]
  exact key _ _
    (fun d => Blocks.iblk0_apply m c ⟨8 * I + s, hb⟩ (y 0) d n (by show n.val = 1024 * ((8 * I + s) / 8) + (y 0).val; omega))
    (fun d => Blocks.iblk1_apply m c ⟨8 * I + s, hb⟩ q d ⟨512 * s + q.val, hq⟩ (by show 512 * s + q.val = 512 * ((8 * I + s) % 8) + q.val; omega))

/-- At the last point of a row tile the output block holds what the scratch holds. -/
theorem out_eq_scratch (c : Dev nD) (t : Fin cfg0.N) (h7 : t.val % 8 = 7) :
    (outsAt0 m c t.val t.isLt).1 = (outsAt0 m c t.val t.isLt).2 := by
  have h0 : ¬t.val % 8 = 0 := by omega
  rw [outsAt0_C m c t h0 h7]
  dsimp only
  refine (Pieces.out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h7) (iblk m c 0 t) (iblk m c 1 t) (outsAt0 m c (t.val - 1) (Nat.lt_of_le_of_lt (Nat.sub_le _ _) t.isLt)).2).trans ?_
  exact (Pieces.sout_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h7) (iblk m c 0 t) (iblk m c 1 t) (outsAt0 m c (t.val - 1) (Nat.lt_of_le_of_lt (Nat.sub_le _ _) t.isLt)).2).symm

/-- THE OUTPUT BLOCK AT THE LAST POINT OF ROW TILE `t / 8`, at row `r`: the specification at row `1024·(t / 8) + r`. -/
theorem out_at_flush (c : Dev nD) (t : Fin cfg0.N) (h7 : t.val % 8 = 7) (y : S1024x1.Idx) (n : Fin 8192)
    (hn : n.val = 1024 * (t.val / 8) + (y 0).val) :
    (outsAt0 m c t.val t.isLt).1 y = RowNorms.rowNorms (argX m c) (argA m c) (ix2 n (0 : Fin 1)) := by
  have hI : t.val / 8 < 8 := by have := lt_of_lt_of_eq t.isLt hN; omega
  rw [out_eq_scratch m c t h7, scratch_after, h7, zero_add,
    Finset.sum_congr rfl (fun s hs => addendAt_eq m c (t.val / 8) s hI (Finset.mem_range.mp hs) y n hn),
    RowNorms.sum_runs (term m c n) 512 8]
  show (∑ p : Fin 4096, term m c n p.val) = ∑ q : Fin 4096, RowNorms.sq (argX m c) (argA m c) n q
  refine Finset.sum_congr rfl fun p _ => ?_
  unfold term
  rw [dif_pos p.isLt]

/-- WHAT THE LAST POINT OF A ROW TILE WRITES BACK is its block of the specification. -/
theorem flushed_eq (c : Dev nD) (t : Fin cfg0.N) (hf : (cfg0.win 2).flush t = true) :
    (dats m 0 c).flushed 2 t = ((cfg0.win 2).blk t).view.read (Elt Ideal) (RowNorms.rowNorms (argX m c) (argA m c)) := by
  have h7 : t.val % 8 = 7 := (flush0_2 t).mp hf
  have hI : t.val / 8 < 8 := by have := lt_of_lt_of_eq t.isLt hN; omega
  rw [Value.flushed2]
  funext j
  have hj0 : (j 0).val < 1024 := (j 0).isLt
  have hj1 : (j 1).val < 1 := (j 1).isLt
  show (outsAt0 m c t.val t.isLt).1 j = RowNorms.rowNorms (argX m c) (argA m c) (((cfg0.win 2).blk t).view.emb j)
  rw [out_at_flush m c t h7 j ⟨1024 * (t.val / 8) + (j 0).val, by omega⟩ rfl]
  refine congrArg _ (funext fun a => Fin.ext ?_)
  obtain ⟨-, -, -, -, e0, e1⟩ := Blocks.idx_facts t
  match a with
  | ⟨0, _⟩ => show 1024 * (t.val / 8) + (j 0).val = win0_2.index t (0 : Fin 2) * 1024 + 1 * (j 0).val; rw [e0]; omega
  | ⟨1, _⟩ => show 0 = win0_2.index t (1 : Fin 2) * 1 + 1 * (j 1).val; rw [e1]; omega

/-- An entry of the result is in point `t`'s block iff its row is among the block's 1024 rows. -/
theorem mem_blk (t : Fin cfg0.N) (i : S8192x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v2).slice (win0_2.rect t)).set ↔ _
  rw [View.set_slice_whole, Rect.mem_set_unit]
  exact Iff.rfl

/-- Row `n` of the result lies in the block written back at the last point of row tile `n / 1024`. -/
theorem cover (i : S8192x1.Idx) :
    ∃ t : Fin cfg0.N, (cfg0.win 2).flush t = true ∧ i ∈ ((cfg0.win 2).blk t).view.set := by
  have hi0 : (i 0).val < 8192 := (i 0).isLt
  have hi1 : (i 1).val < 1 := (i 1).isLt
  have hb : 8 * ((i 0).val / 1024) + 7 < cfg0.N := by rw [hN]; omega
  refine ⟨⟨8 * ((i 0).val / 1024) + 7, hb⟩, (flush0_2 _).mpr (by show (8 * ((i 0).val / 1024) + 7) % 8 = 7; omega), ?_⟩
  rw [mem_blk]
  obtain ⟨-, -, -, -, e0, e1⟩ := Blocks.idx_facts ⟨8 * ((i 0).val / 1024) + 7, hb⟩
  have e0' : win0_2.index ⟨8 * ((i 0).val / 1024) + 7, hb⟩ (0 : Fin 2) = (i 0).val / 1024 := by
    rw [e0]; show (8 * ((i 0).val / 1024) + 7) / 8 = _; omega
  intro a
  match a with
  | ⟨0, _⟩ =>
    show win0_2.index _ (0 : Fin 2) * 1024 ≤ (i 0).val ∧ (i 0).val < win0_2.index _ (0 : Fin 2) * 1024 + 1024
    rw [e0']; omega
  | ⟨1, _⟩ =>
    show win0_2.index _ (1 : Fin 2) * 1 ≤ (i 1).val ∧ (i 1).val < win0_2.index _ (1 : Fin 2) * 1 + 1
    rw [e1]; omega

/-- THE RESULT ARRAY after the run is the specification of the two arguments. -/
theorem final (c : Dev nD) : (dats m 0 c).arrAt 2 cfg0.N = RowNorms.rowNorms (argX m c) (argA m c) :=
  (dats m 0 c).arrAt_eq_of_cover 2 (RowNorms.rowNorms (argX m c) (argA m c)) (fun t hf => flushed_eq m c t hf) cover

/-- THE RUN, READ: every weakly fair execution ends with the result array at the specification of the arguments and
    the arguments unchanged. -/
theorem run : θ_run defs (onTc (τ := τ) (main (F := Ideal))) ⟨m, fun _ => 0, ρ⟩ fun r => ∀ c : Dev nD,
      r.2.mem ((c : Thread nD τ).loc main_v2) = RowNorms.rowNorms (argX m c) (argA m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Fold

end
-- ==== Proof.Reference.lean ====
/-
  The reference computes the specification.

  Its result at entry (n, 0) is the row sum at n — zero plus the sum over the columns k of the squared entry (n, k)
  of the product of the first argument with the transpose of the second — and entry (n, k) of that product is the
  sum over d of X(n, d)·A(k, d): the inner product of row n of X with row k of A.  0 + x = x on the extended reals.
-/
import proofs.«117225_j55301998903476_2_alg».proof.Proof.Gen.ReferenceIdeal.Read
import proofs.«117225_j55301998903476_2_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

/-- The reference's last stage, as a function of the two arguments, is the specification. -/
theorem val_eq_rowNorms (X : FVec Ideal S8192x4096 .f32) (A : FVec Ideal S4096x4096 .f32) :
    val_main_v3 (F := Ideal) X A = Cert.RowNorms.rowNorms X A := by
  funext i
  have el : ∀ (k d : Fin 4096), lidx_main_v0 (idx_main_v2 (idx_main_v3 i) k) d = ix2 (i 0) d := fun k d =>
    funext fun a => Fin.ext (by match a with | ⟨0, _⟩ => rfl | ⟨1, _⟩ => rfl)
  have er : ∀ (k d : Fin 4096), ridx_main_v0 (idx_main_v2 (idx_main_v3 i) k) d = ix2 k d := fun k d =>
    funext fun a => Fin.ext (by match a with | ⟨0, _⟩ => rfl | ⟨1, _⟩ => rfl)
  rw [val_main_v3_apply, val_main_v2_apply, val_main_cst_apply]
  show Ideal.ofBits .f32 0x00000000#32 + _ = _
  rw [Ideal.ofBits_zero_f32, zero_add]
  unfold Cert.RowNorms.rowNorms Cert.RowNorms.sq Cert.RowNorms.inner
  refine Finset.sum_congr rfl fun k _ => ?_
  rw [val_main_v1_apply, val_main_v0_apply]
  simp only [el, er]
  rfl

end Cert.ReferenceIdeal.RefValue

end
-- ==== Proof.lean ====
/-
  The certificate's five claims for the row-norm kernel: for X of 8192×4096 and A of 4096×4096, entry n of the result
  is the squared length of the row X(n, ·)·Aᵀ, i.e. the sum over the rows q of A of the squared inner product of row
  n of X with row q of A.

  The kernel walks an 8×8 grid: for each tile of 1024 rows of X it takes the 4096 rows of A in eight runs of 512,
  adds each run's 512 squared inner products to a scratch column that it zeroes at the first run, and copies the
  scratch to the output block after the last run.  The reference forms the whole product X·Aᵀ, squares it entrywise
  and sums each row.  Over the extended reals a sum may be taken run by run, and 0 + x = x, so both end at the same
  function of the arguments (Proof/Spec.lean's `rowNorms`); the inputs' finiteness is never used.  The changes of
  float format on the kernel's side are the identity at the ideal values.

  The three frames are the generated runs (the reference's with its result dropped); the kernel's idealization
  rewrote no operation, so that claim is trivial; the value claim sets the kernel's run, read as `rowNorms` of the
  arguments (Proof/Fold.lean), beside the reference's run, read as the same (Proof/Reference.lean).
-/
import proofs.«117225_j55301998903476_2_alg».proof.Defs
import proofs.«117225_j55301998903476_2_alg».proof.Proof.Gen.Kernel
import proofs.«117225_j55301998903476_2_alg».proof.Proof.Gen.Kernel.Frame
import proofs.«117225_j55301998903476_2_alg».proof.Proof.Gen.KernelIdeal
import proofs.«117225_j55301998903476_2_alg».proof.Proof.Gen.KernelIdeal.Frame
import proofs.«117225_j55301998903476_2_alg».proof.Proof.Gen.ReferenceIdeal
import proofs.«117225_j55301998903476_2_alg».proof.Proof.Gen.ReferenceIdeal.Run
import proofs.«117225_j55301998903476_2_alg».proof.Proof.Gen.ReferenceIdeal.Read
import proofs.«117225_j55301998903476_2_alg».proof.Proof.Gen.Pre_finite_inputs
import proofs.«117225_j55301998903476_2_alg».proof.Proof.Fold
import proofs.«117225_j55301998903476_2_alg».proof.Proof.Reference
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote nothing: there is no conjunct to prove. -/
theorem preserves : Cert.preserves_Kernel_KernelIdeal := trivial

/-- Both runs end with the result at `rowNorms` of the arguments, and the two programs' arguments agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.RowNorms.rowNorms (Cert.KernelIdeal.Fold.argX m c) (Cert.KernelIdeal.Fold.argA m c),
    Cert.KernelIdeal.Fold.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.val_eq_rowNorms, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
